-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x1 : Shape := ⟨2, ![1000000, 1]⟩
abbrev S2x16000000 : Shape := ⟨2, ![2, 16000000]⟩
abbrev S2x1x1 : Shape := ⟨3, ![2, 1, 1]⟩
abbrev S_ : Shape := ⟨0, ![]⟩

class Facts : Prop where
  bcast_S_S1000000x1 : S_.BroadcastsInDim S1000000x1 (![] : Fin 0 → Fin S1000000x1.rank)
  reducesTo_S1000000x1_S_d0_1 : S1000000x1.ReducesTo [0, 1] S_
  h_S_ : 0 < S_.numel
  bcast_S_S2x1x1 : S_.BroadcastsInDim S2x1x1 (![] : Fin 0 → Fin S2x1x1.rank)
  reducesTo_S2x1x1_S_d0_1_2 : S2x1x1.ReducesTo [0, 1, 2] S_
  reducesTo_S_S_d : S_.ReducesTo [] S_

variable [Facts]

def fn {F : FTy → Type} [FloatOps F] (main_arg0 : FVec F S1000000x1 .f32) (main_arg1 : IVec S2x16000000 32) (main_arg2 : FVec F S2x1x1 .f32) (main_arg3 : FVec F S_ .f32) : IVec S_ 1 :=
  let main_v0 : FVec F S1000000x1 .f32 := Host.absf main_arg0
  let main_cst : FVec F S_ .f32 := constant S_ .f32 0x7F800000#32
  let main_v1 : FVec F S1000000x1 .f32 := broadcastInDim S1000000x1 ![] bcast_S_S1000000x1 main_cst
  let main_v2 : IVec S1000000x1 1 := cmpf .olt main_v0 main_v1
  let main_c : IVec S_ 1 := constantI S_ 1 1#1
  let main_v3 : IVec S_ 1 := (fun x v => Host.reduce IntOp.andi x v reducesTo_S1000000x1_S_d0_1 h_S_) main_v2 main_c
  let main_v4 : FVec F S2x1x1 .f32 := Host.absf main_arg2
  let main_cst_0 : FVec F S_ .f32 := constant S_ .f32 0x7F800000#32
  let main_v5 : FVec F S2x1x1 .f32 := broadcastInDim S2x1x1 ![] bcast_S_S2x1x1 main_cst_0
  let main_v6 : IVec S2x1x1 1 := cmpf .olt main_v4 main_v5
  let main_c_1 : IVec S_ 1 := constantI S_ 1 1#1
  let main_v7 : IVec S_ 1 := (fun x v => Host.reduce IntOp.andi x v reducesTo_S2x1x1_S_d0_1_2 h_S_) main_v6 main_c_1
  let main_v8 : IVec S_ 1 := andi main_v3 main_v7
  let main_v9 : FVec F S_ .f32 := Host.absf main_arg3
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  main_v12
-- ==== Kernel.lean ====
abbrev S1000000x1 : Shape := ⟨2, ![1000000, 1]⟩
abbrev S2x16000000 : Shape := ⟨2, ![2, 16000000]⟩
abbrev S2x1x1 : Shape := ⟨3, ![2, 1, 1]⟩
abbrev S_ : Shape := ⟨0, ![]⟩
abbrev S1x16000000 : Shape := ⟨2, ![1, 16000000]⟩
abbrev S16000000 : Shape := ⟨1, ![16000000]⟩
abbrev S16000000x1 : Shape := ⟨2, ![16000000, 1]⟩
abbrev S1x1x1 : Shape := ⟨3, ![1, 1, 1]⟩
abbrev S1x1 : Shape := ⟨2, ![1, 1]⟩
abbrev S1000x1000 : Shape := ⟨2, ![1000, 1000]⟩
abbrev S200x1000 : Shape := ⟨2, ![200, 1000]⟩
abbrev S1000000 : Shape := ⟨1, ![1000000]⟩

abbrev nBuf : Space → Nat
  | .hbm => 49
  | .vmem => 15
  | .smem => 0
  | _ => 0

abbrev bufTy : (tb : Table) → Fin (tcTables nBuf tb) → BufTy
  | .hbm, ⟨0, _⟩ => ⟨S1000000x1, .f32⟩
  | .hbm, ⟨1, _⟩ => ⟨S2x16000000, .i32⟩
  | .hbm, ⟨2, _⟩ => ⟨S2x1x1, .f32⟩
  | .hbm, ⟨3, _⟩ => ⟨S_, .f32⟩
  | .hbm, ⟨4, _⟩ => ⟨S1x16000000, .i32⟩
  | .hbm, ⟨5, _⟩ => ⟨S16000000, .i32⟩
  | .hbm, ⟨6, _⟩ => ⟨S1x16000000, .i32⟩
  | .hbm, ⟨7, _⟩ => ⟨S16000000, .i32⟩
  | .hbm, ⟨8, _⟩ => ⟨S_, .i32⟩
  | .hbm, ⟨9, _⟩ => ⟨S16000000, .i32⟩
  | .hbm, ⟨10, _⟩ => ⟨S16000000, .i1⟩
  | .hbm, ⟨11, _⟩ => ⟨S_, .i32⟩
  | .hbm, ⟨12, _⟩ => ⟨S16000000, .i32⟩
  | .hbm, ⟨13, _⟩ => ⟨S16000000, .i32⟩
  | .hbm, ⟨14, _⟩ => ⟨S16000000, .i32⟩
  | .hbm, ⟨15, _⟩ => ⟨S16000000x1, .i32⟩
  | .hbm, ⟨16, _⟩ => ⟨S16000000x1, .f32⟩
  | .hbm, ⟨17, _⟩ => ⟨S_, .f32⟩
  | .hbm, ⟨18, _⟩ => ⟨S1000000x1, .f32⟩
  | .hbm, ⟨19, _⟩ => ⟨S16000000x1, .i32⟩
  | .hbm, ⟨20, _⟩ => ⟨S1000000x1, .f32⟩
  | .hbm, ⟨21, _⟩ => ⟨S1x1x1, .f32⟩
  | .hbm, ⟨22, _⟩ => ⟨S1x1, .f32⟩
  | .hbm, ⟨23, _⟩ => ⟨S1000x1000, .f32⟩
  | .hbm, ⟨24, _⟩ => ⟨S1000x1000, .f32⟩
  | .hbm, ⟨25, _⟩ => ⟨S1000000x1, .f32⟩
  | .hbm, ⟨26, _⟩ => ⟨S_, .i32⟩
  | .hbm, ⟨27, _⟩ => ⟨S16000000, .i32⟩
  | .hbm, ⟨28, _⟩ => ⟨S16000000, .i1⟩
  | .hbm, ⟨29, _⟩ => ⟨S_, .i32⟩
  | .hbm, ⟨30, _⟩ => ⟨S16000000, .i32⟩
  | .hbm, ⟨31, _⟩ => ⟨S16000000, .i32⟩
  | .hbm, ⟨32, _⟩ => ⟨S16000000, .i32⟩
  | .hbm, ⟨33, _⟩ => ⟨S16000000x1, .i32⟩
  | .hbm, ⟨34, _⟩ => ⟨S16000000x1, .f32⟩
  | .hbm, ⟨35, _⟩ => ⟨S_, .f32⟩
  | .hbm, ⟨36, _⟩ => ⟨S1000000x1, .f32⟩
  | .hbm, ⟨37, _⟩ => ⟨S16000000x1, .i32⟩
  | .hbm, ⟨38, _⟩ => ⟨S1000000x1, .f32⟩
  | .hbm, ⟨39, _⟩ => ⟨S1x1x1, .f32⟩
  | .hbm, ⟨40, _⟩ => ⟨S1x1, .f32⟩
  | .hbm, ⟨41, _⟩ => ⟨S1000x1000, .f32⟩
  | .hbm, ⟨42, _⟩ => ⟨S1000x1000, .f32⟩
  | .hbm, ⟨43, _⟩ => ⟨S1000000x1, .f32⟩
  | .hbm, ⟨44, _⟩ => ⟨S1000x1000, .f32⟩
  | .hbm, ⟨45, _⟩ => ⟨S1x1, .f32⟩
  | .hbm, ⟨46, _⟩ => ⟨S1000x1000, .f32⟩
  | .hbm, ⟨47, _⟩ => ⟨S1000000x1, .f32⟩
  | .hbm, ⟨48, _⟩ => ⟨S1000000, .f32⟩
  | .local _ .vmem, ⟨0, _⟩ => ⟨S200x1000, .f32⟩
  | .local _ .vmem, ⟨1, _⟩ => ⟨S200x1000, .f32⟩
  | .local _ .vmem, ⟨2, _⟩ => ⟨S1x1, .f32⟩
  | .local _ .vmem, ⟨3, _⟩ => ⟨S200x1000, .f32⟩
  | .local _ .vmem, ⟨4, _⟩ => ⟨S200x1000, .f32⟩
  | .local _ .vmem, ⟨5, _⟩ => ⟨S200x1000, .f32⟩
  | .local _ .vmem, ⟨6, _⟩ => ⟨S200x1000, .f32⟩
  | .local _ .vmem, ⟨7, _⟩ => ⟨S1x1, .f32⟩
  | .local _ .vmem, ⟨8, _⟩ => ⟨S200x1000, .f32⟩
  | .local _ .vmem, ⟨9, _⟩ => ⟨S200x1000, .f32⟩
  | .local _ .vmem, ⟨10, _⟩ => ⟨S200x1000, .f32⟩
  | .local _ .vmem, ⟨11, _⟩ => ⟨S200x1000, .f32⟩
  | .local _ .vmem, ⟨12, _⟩ => ⟨S1x1, .f32⟩
  | .local _ .vmem, ⟨13, _⟩ => ⟨S200x1000, .f32⟩
  | .local _ .vmem, ⟨14, _⟩ => ⟨S200x1000, .f32⟩
  | _, _ => ⟨S1000000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_c_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x1000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S200x1000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S200x1000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S200x1000 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  bcast_S_S16000000 : S_.BroadcastsInDim S16000000 (![] : Fin 0 → Fin S16000000.rank)
  bcast_S16000000_S16000000x1_0 : S16000000.BroadcastsInDim S16000000x1 (![0] : Fin 1 → Fin S16000000x1.rank)
  bcast_S_S1000000x1 : S_.BroadcastsInDim S1000000x1 (![] : Fin 0 → Fin S1000000x1.rank)
  slices_S2x1x1_S1x1x1_0_0_0 : S2x1x1.Slices ![0, 0, 0] S1x1x1
  shapeCasts_S1x1x1_S1x1 : S1x1x1.ShapeCasts S1x1
  shapeCasts_S1000000x1_S1000x1000 : S1000000x1.ShapeCasts S1000x1000
  inb_S200x1000_S200x1000_0_0 : ∀ a, (![0, 0] : Fin 2 → Nat) a + S200x1000.size a ≤ S200x1000.size a
  h_S200x1000 : 0 < S200x1000.numel
  shapeCasts_S200x1000_S200x1000 : S200x1000.ShapeCasts S200x1000
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S200x1000 : S1x1.Broadcasts S200x1000
  shapeCasts_S1000x1000_S1000000x1 : S1000x1000.ShapeCasts S1000000x1
  slices_S2x1x1_S1x1x1_1_0_0 : S2x1x1.Slices ![1, 0, 0] S1x1x1
  shapeCasts_S_S1x1 : S_.ShapeCasts S1x1
  shapeCasts_S1000000x1_S1000000 : S1000000x1.ShapeCasts S1000000
  gather_S1000000x1_S16000000x1_S16000000x1_1_0_n_n_0_1_11_wf : GatherDims.WF S1000000x1 S16000000x1 S16000000x1 [1] [0] [] [0] [] 1 ![1, 1]
  scatter_S1000000x1_S16000000x1_S16000000x1_1_0_0_1_wf : ScatterDims.WF S1000000x1 S16000000x1 S16000000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x1000.size a ≤ S1000x1000.size a
  hwx0_0 : ∀ i : grid0.Coords, EltTy.bits .f32 = 32 ∨ (Rect.block (s := S1000x1000) S200x1000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x1000.size a ≤ S1000x1000.size a
  hwx0_2 : ∀ i : grid0.Coords, EltTy.bits .f32 = 32 ∨ (Rect.block (s := S1000x1000) S200x1000.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x1000.size a ≤ S1000x1000.size a
  hwx1_0 : ∀ i : grid1.Coords, EltTy.bits .f32 = 32 ∨ (Rect.block (s := S1000x1000) S200x1000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S200x1000.size a ≤ S1000x1000.size a
  hwx1_2 : ∀ i : grid1.Coords, EltTy.bits .f32 = 32 ∨ (Rect.block (s := S1000x1000) S200x1000.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x1000.size a ≤ S1000x1000.size a
  hwx2_0 : ∀ i : grid2.Coords, EltTy.bits .f32 = 32 ∨ (Rect.block (s := S1000x1000) S200x1000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1.size a ≤ S1x1.size a
  hwx2_1 : ∀ i : grid2.Coords, EltTy.bits .f32 = 32 ∨ (Rect.block (s := S1x1) S1x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S200x1000.size a ≤ S1000x1000.size a
  hwx2_2 : ∀ i : grid2.Coords, EltTy.bits .f32 = 32 ∨ (Rect.block (s := S1000x1000) S200x1000.size (cc2_transform_2 i) (hinb2_2 i)).WholeWords (EltTy.packing .f32)

variable [Facts₀]

def gather_S1000000x1_S16000000x1_S16000000x1_1_0_n_n_0_1_11 : GatherDims S1000000x1 S16000000x1 S16000000x1 where
  offsetDims := [1]
  collapsedSliceDims := [0]
  operandBatchingDims := []
  startIndicesBatchingDims := []
  startIndexMap := [0]
  indexVectorDim := 1
  sliceSizes := ![1, 1]
  wf := gather_S1000000x1_S16000000x1_S16000000x1_1_0_n_n_0_1_11_wf
def scatter_S1000000x1_S16000000x1_S16000000x1_1_0_0_1 : ScatterDims S1000000x1 S16000000x1 S16000000x1 where
  updateWindowDims := [1]
  insertedWindowDims := [0]
  scatterDimsToOperandDims := [0]
  indexVectorDim := 1
  wf := scatter_S1000000x1_S16000000x1_S16000000x1_1_0_0_1_wf

abbrev win0_0 : Pipeline.Window sig grid0 :=
  Pipeline.Window.ofSpec (Memref.whole main_v16) S200x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S200x1000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v31) S200x1000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32) S200x1000.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v34) S200x1000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S1x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v36) S200x1000.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S1000000x1 : Shape := ⟨2, ![1000000, 1]⟩
abbrev S2x16000000 : Shape := ⟨2, ![2, 16000000]⟩
abbrev S2x1x1 : Shape := ⟨3, ![2, 1, 1]⟩
abbrev S_ : Shape := ⟨0, ![]⟩
abbrev S1x16000000 : Shape := ⟨2, ![1, 16000000]⟩
abbrev S16000000 : Shape := ⟨1, ![16000000]⟩
abbrev S16000000x1 : Shape := ⟨2, ![16000000, 1]⟩
abbrev S1x1x1 : Shape := ⟨3, ![1, 1, 1]⟩
abbrev S1x1 : Shape := ⟨2, ![1, 1]⟩
abbrev S1000000 : Shape := ⟨1, ![1000000]⟩

abbrev nBuf : Space → Nat
  | .hbm => 57
  | .vmem => 0
  | .smem => 0
  | _ => 0

abbrev bufTy : (tb : Table) → Fin (tcTables nBuf tb) → BufTy
  | .hbm, ⟨0, _⟩ => ⟨S1000000x1, .f32⟩
  | .hbm, ⟨1, _⟩ => ⟨S2x16000000, .i32⟩
  | .hbm, ⟨2, _⟩ => ⟨S2x1x1, .f32⟩
  | .hbm, ⟨3, _⟩ => ⟨S_, .f32⟩
  | .hbm, ⟨4, _⟩ => ⟨S1x16000000, .i32⟩
  | .hbm, ⟨5, _⟩ => ⟨S16000000, .i32⟩
  | .hbm, ⟨6, _⟩ => ⟨S1x16000000, .i32⟩
  | .hbm, ⟨7, _⟩ => ⟨S16000000, .i32⟩
  | .hbm, ⟨8, _⟩ => ⟨S_, .i32⟩
  | .hbm, ⟨9, _⟩ => ⟨S16000000, .i32⟩
  | .hbm, ⟨10, _⟩ => ⟨S16000000, .i1⟩
  | .hbm, ⟨11, _⟩ => ⟨S_, .i32⟩
  | .hbm, ⟨12, _⟩ => ⟨S16000000, .i32⟩
  | .hbm, ⟨13, _⟩ => ⟨S16000000, .i32⟩
  | .hbm, ⟨14, _⟩ => ⟨S16000000, .i32⟩
  | .hbm, ⟨15, _⟩ => ⟨S16000000x1, .i32⟩
  | .hbm, ⟨16, _⟩ => ⟨S16000000x1, .f32⟩
  | .hbm, ⟨17, _⟩ => ⟨S_, .f32⟩
  | .hbm, ⟨18, _⟩ => ⟨S1000000x1, .f32⟩
  | .hbm, ⟨19, _⟩ => ⟨S16000000x1, .i32⟩
  | .hbm, ⟨20, _⟩ => ⟨S1000000x1, .f32⟩
  | .hbm, ⟨21, _⟩ => ⟨S1x1x1, .f32⟩
  | .hbm, ⟨22, _⟩ => ⟨S1x1, .f32⟩
  | .hbm, ⟨23, _⟩ => ⟨S1000000x1, .f32⟩
  | .hbm, ⟨24, _⟩ => ⟨S_, .f32⟩
  | .hbm, ⟨25, _⟩ => ⟨S1000000x1, .f32⟩
  | .hbm, ⟨26, _⟩ => ⟨S1000000x1, .f32⟩
  | .hbm, ⟨27, _⟩ => ⟨S_, .i32⟩
  | .hbm, ⟨28, _⟩ => ⟨S16000000, .i32⟩
  | .hbm, ⟨29, _⟩ => ⟨S16000000, .i1⟩
  | .hbm, ⟨30, _⟩ => ⟨S_, .i32⟩
  | .hbm, ⟨31, _⟩ => ⟨S16000000, .i32⟩
  | .hbm, ⟨32, _⟩ => ⟨S16000000, .i32⟩
  | .hbm, ⟨33, _⟩ => ⟨S16000000, .i32⟩
  | .hbm, ⟨34, _⟩ => ⟨S16000000x1, .i32⟩
  | .hbm, ⟨35, _⟩ => ⟨S16000000x1, .f32⟩
  | .hbm, ⟨36, _⟩ => ⟨S_, .f32⟩
  | .hbm, ⟨37, _⟩ => ⟨S1000000x1, .f32⟩
  | .hbm, ⟨38, _⟩ => ⟨S16000000x1, .i32⟩
  | .hbm, ⟨39, _⟩ => ⟨S1000000x1, .f32⟩
  | .hbm, ⟨40, _⟩ => ⟨S1x1x1, .f32⟩
  | .hbm, ⟨41, _⟩ => ⟨S1x1, .f32⟩
  | .hbm, ⟨42, _⟩ => ⟨S1000000x1, .f32⟩
  | .hbm, ⟨43, _⟩ => ⟨S_, .f32⟩
  | .hbm, ⟨44, _⟩ => ⟨S1000000x1, .f32⟩
  | .hbm, ⟨45, _⟩ => ⟨S1000000x1, .f32⟩
  | .hbm, ⟨46, _⟩ => ⟨S1000000, .f32⟩
  | .hbm, ⟨47, _⟩ => ⟨S1000000, .f32⟩
  | .hbm, ⟨48, _⟩ => ⟨S1000000, .f32⟩
  | .hbm, ⟨49, _⟩ => ⟨S1000000, .f32⟩
  | .hbm, ⟨50, _⟩ => ⟨S1000000, .f32⟩
  | .hbm, ⟨51, _⟩ => ⟨S_, .f32⟩
  | .hbm, ⟨52, _⟩ => ⟨S1000000, .f32⟩
  | .hbm, ⟨53, _⟩ => ⟨S1000000, .f32⟩
  | .hbm, ⟨54, _⟩ => ⟨S_, .f32⟩
  | .hbm, ⟨55, _⟩ => ⟨S1000000, .f32⟩
  | .hbm, ⟨56, _⟩ => ⟨S1000000, .f32⟩
  | _, _ => ⟨S1000000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_cst : Ref sig .tc := ⟨.hbm, 24, rfl⟩
abbrev main_call0_v0 : Ref sig .tc := ⟨.hbm, 25, rfl⟩
abbrev main_v17 : Ref sig .tc := ⟨.hbm, 26, rfl⟩
abbrev main_c_1 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_call1_cst : Ref sig .tc := ⟨.hbm, 43, rfl⟩
abbrev main_call1_v0 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_4 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  bcast_S_S16000000 : S_.BroadcastsInDim S16000000 (![] : Fin 0 → Fin S16000000.rank)
  bcast_S16000000_S16000000x1_0 : S16000000.BroadcastsInDim S16000000x1 (![0] : Fin 1 → Fin S16000000x1.rank)
  bcast_S_S1000000x1 : S_.BroadcastsInDim S1000000x1 (![] : Fin 0 → Fin S1000000x1.rank)
  slices_S2x1x1_S1x1x1_0_0_0 : S2x1x1.Slices ![0, 0, 0] S1x1x1
  shapeCasts_S1x1x1_S1x1 : S1x1x1.ShapeCasts S1x1
  slices_S2x1x1_S1x1x1_1_0_0 : S2x1x1.Slices ![1, 0, 0] S1x1x1
  shapeCasts_S1000000x1_S1000000 : S1000000x1.ShapeCasts S1000000
  bcast_S_S1000000 : S_.BroadcastsInDim S1000000 (![] : Fin 0 → Fin S1000000.rank)
  gather_S1000000x1_S16000000x1_S16000000x1_1_0_n_n_0_1_11_wf : GatherDims.WF S1000000x1 S16000000x1 S16000000x1 [1] [0] [] [0] [] 1 ![1, 1]
  scatter_S1000000x1_S16000000x1_S16000000x1_1_0_0_1_wf : ScatterDims.WF S1000000x1 S16000000x1 S16000000x1 [1] [0] [0] 1
  dot_S1000000x1_S1x1_S1000000x1_1_0_0_1_n_n_wf : DotDims.WF S1000000x1 S1x1 S1000000x1 [1] [0] [0] [1] [] []

variable [Facts₀]

def gather_S1000000x1_S16000000x1_S16000000x1_1_0_n_n_0_1_11 : GatherDims S1000000x1 S16000000x1 S16000000x1 where
  offsetDims := [1]
  collapsedSliceDims := [0]
  operandBatchingDims := []
  startIndicesBatchingDims := []
  startIndexMap := [0]
  indexVectorDim := 1
  sliceSizes := ![1, 1]
  wf := gather_S1000000x1_S16000000x1_S16000000x1_1_0_n_n_0_1_11_wf
def scatter_S1000000x1_S16000000x1_S16000000x1_1_0_0_1 : ScatterDims S1000000x1 S16000000x1 S16000000x1 where
  updateWindowDims := [1]
  insertedWindowDims := [0]
  scatterDimsToOperandDims := [0]
  indexVectorDim := 1
  wf := scatter_S1000000x1_S16000000x1_S16000000x1_1_0_0_1_wf
def dot_S1000000x1_S1x1_S1000000x1_1_0_0_1_n_n : DotDims S1000000x1 S1x1 S1000000x1 where
  lhsContracting := [1]
  rhsContracting := [0]
  lhsNonContracting := [0]
  rhsNonContracting := [1]
  lhsBatch := []
  rhsBatch := []
  wf := dot_S1000000x1_S1x1_S1000000x1_1_0_0_1_n_n_wf

class Facts : Prop extends Facts₀ where

variable [Facts]
-- ==== Proof.Whole.lean ====
/-
  The whole program's run, with its result read.

  The program is seven segments: host operations, the first tiled pass, host operations, the second pass, host
  operations, the last pass, and two closing reshapes. Each segment starts from the buffer contents the previous
  one leaves, so after the last segment every buffer holds the seven-fold composition applied to the launch memory.
  Termination and the absence of faults follow segment by segment, each segment's run chained to the next by the
  contents it leaves; the final state is then read at the four argument arrays, which no segment writes, and at the
  result buffer, which holds the last boundary's contents there.
-/
import proofs.«152386_j85856396248058_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's contents
    and the four arguments end as launched. -/
theorem run : θ_run defs (onTc (τ := τ) (main (F := F))) ⟨m, fun _ => 0, ρ⟩ (fun r => ∀ c : Dev nD,
      r.2.mem ((c.tc : Thread nD τ).loc main_v38) = W7 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v38 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c)⟩)

end Cert.KernelIdeal.Whole

end
-- ==== Proof.Terms.lean ====
/-
  The program's value, named piece by piece.

  Two rounds of message passing over a fixed edge list and a logistic head. The edge list is a 2 × E integer table:
  row 0 the source of each edge, row 1 its destination. One round sends every node's feature along its outgoing
  edges and sums what arrives: a gather of the feature column at the sources (a negative source index first
  wrapped by adding the number of nodes, as array indexing does) followed by a sum into the destinations, starting
  from zero. After each round the N × 1 column is laid out as a 1000 × 1000 slab (same row-major order), scaled by
  that round's 1 × 1 weight and clamped below at zero, and laid back as a column. Last, the slab is shifted by the
  bias and passed through the logistic function, and read out as a vector of length N.
-/
import proofs.«152386_j85856396248058_2_alg».proof.Proof.Gen.KernelIdeal
import Idealize.ShloMosaic.PureOps.Ideal

noncomputable section

namespace Cert.KernelIdeal.Terms

open Cert.KernelIdeal Cert.KernelIdeal.Gen Idealize.ShloMosaic

variable {F : FTy → Type} [FloatOps F]

/-- The one index of a 1 × 1 parameter. -/
def unitIx : S1x1.Idx := fun a => match a with
  | ⟨0, _⟩ => ⟨0, Nat.one_pos⟩
  | ⟨1, _⟩ => ⟨0, Nat.one_pos⟩

/-- Scale by the parameter and clamp below at zero, entry by entry of the slab. -/
def scaleClamp (a : S1000x1000.Idx → Elt F .f32) (w : S1x1.Idx → Elt F .f32) : S1000x1000.Idx → Elt F .f32 :=
  fun i => FloatOps.maximumf (FloatOps.mulf (a i) (w unitIx)) (FloatOps.ofBits .f32 0x00000000#32)

/-- The logistic of the slab shifted by the parameter, spelt as the last pass computes it:
    1 / (1 + exp (0 - (a + b))). -/
def shiftLogistic (a : S1000x1000.Idx → Elt F .f32) (b : S1x1.Idx → Elt F .f32) : S1000x1000.Idx → Elt F .f32 :=
  fun i => FloatOps.divf (FloatOps.ofBits .f32 0x3F800000#32)
    (FloatOps.addf (FloatOps.ofBits .f32 0x3F800000#32)
      (FloatOps.exp (FloatOps.subf (FloatOps.ofBits .f32 0x00000000#32) (FloatOps.addf (a i) (b unitIx)))))

/-- The edges' sources: row 0 of the edge table. -/
def srcRow (e : (⟨S2x16000000, .i32⟩ : BufTy).Contents (Elt F)) : (⟨S16000000, .i32⟩ : BufTy).Contents (Elt F) :=
  shapeCast _ (extractStridedSlice S1x16000000 ![0, 0] e slices_S2x16000000_S1x16000000_0_0) shapeCasts_S1x16000000_S16000000

/-- The edges' destinations: row 1 of the edge table. -/
def dstRow (e : (⟨S2x16000000, .i32⟩ : BufTy).Contents (Elt F)) : (⟨S16000000, .i32⟩ : BufTy).Contents (Elt F) :=
  shapeCast _ (extractStridedSlice S1x16000000 ![1, 0] e slices_S2x16000000_S1x16000000_1_0) shapeCasts_S1x16000000_S16000000

/-- One round: the feature column gathered at the (wrapped) sources and summed into the destinations from zero. -/
def gatherSum (x : (⟨S1000000x1, .f32⟩ : BufTy).Contents (Elt F)) (s d : (⟨S16000000, .i32⟩ : BufTy).Contents (Elt F)) :
    (⟨S1000000x1, .f32⟩ : BufTy).Contents (Elt F) :=
  Host.scatterAdd scatter_S1000000x1_S16000000x1_S16000000x1_1_0_0_1
    (broadcastInDim S1000000x1 ![] bcast_S_S1000000x1 (constant S_ .f32 0x00000000#32))
    (broadcastInDim S16000000x1 ![0] bcast_S16000000_S16000000x1_0 d)
    (Host.gather gather_S1000000x1_S16000000x1_S16000000x1_1_0_n_n_0_1_11 x
      (broadcastInDim S16000000x1 ![0] bcast_S16000000_S16000000x1_0
        (select (cmpi .slt s (broadcastInDim S16000000 ![] bcast_S_S16000000 (constantI S_ 32 0#32)))
          (addi s (broadcastInDim S16000000 ![] bcast_S_S16000000 (constantI S_ 32 1000000#32))) s)))

/-- The first round's 1 × 1 weight. -/
def weight0 (w : (⟨S2x1x1, .f32⟩ : BufTy).Contents (Elt F)) : (⟨S1x1, .f32⟩ : BufTy).Contents (Elt F) :=
  shapeCast _ (extractStridedSlice S1x1x1 ![0, 0, 0] w slices_S2x1x1_S1x1x1_0_0_0) shapeCasts_S1x1x1_S1x1

/-- The second round's 1 × 1 weight. -/
def weight1 (w : (⟨S2x1x1, .f32⟩ : BufTy).Contents (Elt F)) : (⟨S1x1, .f32⟩ : BufTy).Contents (Elt F) :=
  shapeCast _ (extractStridedSlice S1x1x1 ![1, 0, 0] w slices_S2x1x1_S1x1x1_1_0_0) shapeCasts_S1x1x1_S1x1

/-- A round followed by its tiled pass, column to column. -/
def layer (x : (⟨S1000000x1, .f32⟩ : BufTy).Contents (Elt F)) (s d : (⟨S16000000, .i32⟩ : BufTy).Contents (Elt F))
    (w : (⟨S1x1, .f32⟩ : BufTy).Contents (Elt F)) : (⟨S1000000x1, .f32⟩ : BufTy).Contents (Elt F) :=
  shapeCast S1000000x1 (scaleClamp (shapeCast S1000x1000 (gatherSum x s d) shapeCasts_S1000000x1_S1000x1000) w)
    shapeCasts_S1000x1000_S1000000x1

/-- The logistic head on a column: slab, shifted logistic, column, vector. -/
def head (h : (⟨S1000000x1, .f32⟩ : BufTy).Contents (Elt F)) (b : (⟨S_, .f32⟩ : BufTy).Contents (Elt F)) :
    (⟨S1000000, .f32⟩ : BufTy).Contents (Elt F) :=
  shapeCast S1000000 (shapeCast S1000000x1
      (shiftLogistic (shapeCast S1000x1000 h shapeCasts_S1000000x1_S1000x1000) (shapeCast S1x1 b shapeCasts_S_S1x1))
      shapeCasts_S1000x1000_S1000000x1) shapeCasts_S1000000x1_S1000000

/-- The whole program's result from its four arguments. -/
def result (x : (⟨S1000000x1, .f32⟩ : BufTy).Contents (Elt F)) (e : (⟨S2x16000000, .i32⟩ : BufTy).Contents (Elt F))
    (w : (⟨S2x1x1, .f32⟩ : BufTy).Contents (Elt F)) (b : (⟨S_, .f32⟩ : BufTy).Contents (Elt F)) :
    (⟨S1000000, .f32⟩ : BufTy).Contents (Elt F) :=
  head (layer (layer x (srcRow e) (dstRow e) (weight0 w)) (srcRow e) (dstRow e) (weight1 w)) b

end Cert.KernelIdeal.Terms

end
-- ==== Proof.Slab.lean ====
/-
  What each of the three tiled elementwise passes leaves in its output array.

  Every pass walks the 1000 × 1000 slab in five row-blocks of 200 rows; at block t it reads rows
  [200 t, 200 t + 200) of the input slab and the single entry of a 1 × 1 parameter, and writes the same rows of
  the output slab. The first two passes write max (a · w) 0, the last one 1 / (1 + exp (0 - (a + b))), entry by
  entry. Because a block's entry (r, c) depends only on the input's entry at the same absolute position, the five
  blocks are restrictions of ONE function of the whole input slab, and since the five blocks tile the slab the
  output array ends holding that function everywhere. Stated for any contents the pass finds on entry.
-/
import proofs.«152386_j85856396248058_2_alg».proof.Proof.Gen.KernelIdeal.Frame
import proofs.«152386_j85856396248058_2_alg».proof.Proof.Terms
import Idealize.ShloMosaic.Lib.Pipeline.Value
import Idealize.ShloMosaic.Lib.ValueIdx

set_option maxRecDepth 16384

noncomputable section

namespace Cert.KernelIdeal.Slab

open Cert.KernelIdeal Cert.KernelIdeal.Gen Cert.KernelIdeal.Terms Idealize.ShloMosaic Idealize.ShloMosaic.TcCoe Idealize.SL.Sem
open Idealize.ShloMosaic.Pipeline (Dat)

variable {F : FTy → Type} [FloatOps F]

/-- The zero offsets of a whole-buffer access. -/
theorem zeroOff : (![0, 0] : Fin 2 → Nat) = fun _ => 0 := funext fun a => by fin_cases a <;> rfl

/-- The 1 × 1 parameter spread over a block reads its one entry everywhere. -/
theorem spread_apply (x : Vec F S1x1 .f32) (j : S200x1000.Idx) :
    broadcastTo S200x1000 (shapeCast S1x1 x shapeCasts_S1x1_S1x1) broadcasts_S1x1_S200x1000 j = x unitIx := by
  rw [shapeCast_self]
  exact broadcastTo_apply x broadcasts_S1x1_S200x1000 j unitIx (fun a => by fin_cases a <;> rfl)

/-- A block of the first pass, entry by entry. -/
theorem pay0_apply (x0 : Vec F S200x1000 .f32) (x1 : Vec F S1x1 .f32) (j : S200x1000.Idx) :
    k0_pay1 x0 x1 j = FloatOps.maximumf (FloatOps.mulf (x0 j) (x1 unitIx)) (FloatOps.ofBits .f32 0x00000000#32) := by
  unfold k0_pay1
  show FloatOps.maximumf (FloatOps.mulf (shapeCast S200x1000 x0 shapeCasts_S200x1000_S200x1000 j) (broadcastTo S200x1000 (shapeCast S1x1 x1 shapeCasts_S1x1_S1x1) broadcasts_S1x1_S200x1000 j)) _ = _
  rw [spread_apply, shapeCast_self]
  rfl

/-- A block of the second pass, entry by entry. -/
theorem pay1_apply (x0 : Vec F S200x1000 .f32) (x1 : Vec F S1x1 .f32) (j : S200x1000.Idx) :
    k1_pay1 x0 x1 j = FloatOps.maximumf (FloatOps.mulf (x0 j) (x1 unitIx)) (FloatOps.ofBits .f32 0x00000000#32) := by
  unfold k1_pay1
  show FloatOps.maximumf (FloatOps.mulf (shapeCast S200x1000 x0 shapeCasts_S200x1000_S200x1000 j) (broadcastTo S200x1000 (shapeCast S1x1 x1 shapeCasts_S1x1_S1x1) broadcasts_S1x1_S200x1000 j)) _ = _
  rw [spread_apply, shapeCast_self]
  rfl

/-- A block of the last pass, entry by entry. -/
theorem pay2_apply (x0 : Vec F S200x1000 .f32) (x1 : Vec F S1x1 .f32) (j : S200x1000.Idx) :
    k2_pay1 x0 x1 j = FloatOps.divf (FloatOps.ofBits .f32 0x3F800000#32)
      (FloatOps.addf (FloatOps.ofBits .f32 0x3F800000#32)
        (FloatOps.exp (FloatOps.subf (FloatOps.ofBits .f32 0x00000000#32) (FloatOps.addf (x0 j) (x1 unitIx))))) := by
  unfold k2_pay1
  show FloatOps.divf _ (FloatOps.addf _ (FloatOps.exp (FloatOps.subf _ (FloatOps.addf (shapeCast S200x1000 x0 shapeCasts_S200x1000_S200x1000 j) (broadcastTo S200x1000 (shapeCast S1x1 x1 shapeCasts_S1x1_S1x1) broadcasts_S1x1_S200x1000 j))))) = _
  rw [spread_apply, shapeCast_self]
  rfl

/-! ## Pass 0 -/

/-- Block t of the input and of the output are the same rows; the parameter's block is the parameter. -/
theorem rows0 : ∀ t : Fin cfg0.N, win0_0.index t (0 : Fin 2) = win0_2.index t (0 : Fin 2)
    ∧ win0_0.index t (1 : Fin 2) = 0 ∧ win0_2.index t (1 : Fin 2) = 0
    ∧ win0_1.index t (0 : Fin 2) = 0 ∧ win0_1.index t (1 : Fin 2) = 0
    ∧ win0_2.index t (0 : Fin 2) ≤ 4 :=
  (by decide +kernel : ∀ t : Fin grid0.N, _)

/-- Every one of the five row-blocks is some point's. -/
theorem rowsOnto0 : ∀ q : Fin 5, ∃ t : Fin cfg0.N, win0_2.index t (0 : Fin 2) = q.val :=
  (by decide +kernel : ∀ q : Fin 5, ∃ t : Fin grid0.N, win0_2.index t (0 : Fin 2) = q.val)

/-- What point t writes back is rows [200 t, 200 t + 200) of the pass's function of the arrays it found. -/
theorem flushed0 (V : (c : Dev nD) → (b : Ref sig .tc) → Buf (Elt F) ((c : Thread nD τ).loc b)) (c : Dev nD) (t : Fin cfg0.N) :
    (dat0 V c).flushed 2 t = ((cfg0.win 2).blk t).view.read (Elt F) (scaleClamp (V c main_v16) (V c main_v15)) := by
  show (cfg0.win 2).cut (grid0.coords t) ((dat0 V c).after 2 t) = _
  rw [after0_2]
  unfold out0_2
  rw [View.canon_unit_zero zeroOff]
  simp only [View.ld_unit_zero (S := S200x1000) zeroOff, View.ld_unit_zero (S := S1x1) zeroOff]
  obtain ⟨e0, e1, e2, e3, e4, e5⟩ := rows0 t
  funext j
  refine (pay0_apply (iblk0 V c 0 t) (iblk0 V c 1 t) j).trans ?_
  have h0 : ((cfg0.win 0).blk t).view.emb j = ((cfg0.win 2).blk t).view.emb j := by
    funext a; apply Fin.ext
    match a with
    | ⟨0, _⟩ => show win0_0.index t (0 : Fin 2) * 200 + 1 * (j 0).val = win0_2.index t (0 : Fin 2) * 200 + 1 * (j 0).val; omega
    | ⟨1, _⟩ => show win0_0.index t (1 : Fin 2) * 1000 + 1 * (j 1).val = win0_2.index t (1 : Fin 2) * 1000 + 1 * (j 1).val; omega
  have h1 : ((cfg0.win 1).blk t).view.emb unitIx = unitIx := by
    funext a; apply Fin.ext
    match a with
    | ⟨0, _⟩ => show win0_1.index t (0 : Fin 2) * 1 + 1 * 0 = 0; omega
    | ⟨1, _⟩ => show win0_1.index t (1 : Fin 2) * 1 + 1 * 0 = 0; omega
  show _ = scaleClamp (V c main_v16) (V c main_v15) (((cfg0.win 2).blk t).view.emb j)
  unfold scaleClamp iblk0
  show FloatOps.maximumf (FloatOps.mulf (V c main_v16 (((cfg0.win 0).blk t).view.emb j)) (V c main_v15 (((cfg0.win 1).blk t).view.emb unitIx))) _ = _
  rw [h0, h1]

/-- An index of the slab is in point t's block iff its row is among the block's 200 rows. -/
theorem memRows0 (t : Fin cfg0.N) (i : S1000x1000.Idx) :
    i ∈ ((cfg0.win 2).blk t).view.set ↔ ∀ a : Fin 2, win0_2.index t a * S200x1000.size a ≤ (i a).val ∧ (i a).val < win0_2.index t a * S200x1000.size a + S200x1000.size a := by
  show i ∈ ((View.whole main_v17).slice (win0_2.rect t)).set ↔ _
  rw [View.set_slice_whole, Rect.mem_set_unit]
  exact Iff.rfl

/-- The five blocks tile the slab: row r lies in block r / 200. -/
theorem tiles0 (i : S1000x1000.Idx) : ∃ t : Fin cfg0.N, (cfg0.win 2).flush t = true ∧ i ∈ ((cfg0.win 2).blk t).view.set := by
  have hi0 : (i 0).val < 1000 := (i 0).isLt
  have hi1 : (i 1).val < 1000 := (i 1).isLt
  obtain ⟨t, ht⟩ := rowsOnto0 ⟨(i 0).val / 200, by omega⟩
  have q0 : win0_2.index t (0 : Fin 2) = (i 0).val / 200 := ht
  obtain ⟨e0, e1, e2, e3, e4, e5⟩ := rows0 t
  refine ⟨t, flush0_2 t, ?_⟩
  rw [memRows0]
  intro a
  match a with
  | ⟨0, _⟩ => show win0_2.index t (0 : Fin 2) * 200 ≤ (i 0).val ∧ (i 0).val < win0_2.index t (0 : Fin 2) * 200 + 200; omega
  | ⟨1, _⟩ => show win0_2.index t (1 : Fin 2) * 1000 ≤ (i 1).val ∧ (i 1).val < win0_2.index t (1 : Fin 2) * 1000 + 1000; omega

/-- The output array after the pass: the pass's function of the arrays it found, everywhere. -/
theorem arr0 (V : (c : Dev nD) → (b : Ref sig .tc) → Buf (Elt F) ((c : Thread nD τ).loc b)) (c : Dev nD) :
    (dat0 V c).arrAt 2 cfg0.N = scaleClamp (V c main_v16) (V c main_v15) :=
  (dat0 V c).arrAt_eq_of_cover 2 _ (fun t _ => flushed0 V c t) tiles0

/-! ## Pass 1 -/

/-- Block t of the input and of the output are the same rows; the parameter's block is the parameter. -/
theorem rows1 : ∀ t : Fin cfg1.N, win1_0.index t (0 : Fin 2) = win1_2.index t (0 : Fin 2)
    ∧ win1_0.index t (1 : Fin 2) = 0 ∧ win1_2.index t (1 : Fin 2) = 0
    ∧ win1_1.index t (0 : Fin 2) = 0 ∧ win1_1.index t (1 : Fin 2) = 0
    ∧ win1_2.index t (0 : Fin 2) ≤ 4 :=
  (by decide +kernel : ∀ t : Fin grid1.N, _)

/-- Every one of the five row-blocks is some point's. -/
theorem rowsOnto1 : ∀ q : Fin 5, ∃ t : Fin cfg1.N, win1_2.index t (0 : Fin 2) = q.val :=
  (by decide +kernel : ∀ q : Fin 5, ∃ t : Fin grid1.N, win1_2.index t (0 : Fin 2) = q.val)

/-- What point t writes back is rows [200 t, 200 t + 200) of the pass's function of the arrays it found. -/
theorem flushed1 (V : (c : Dev nD) → (b : Ref sig .tc) → Buf (Elt F) ((c : Thread nD τ).loc b)) (c : Dev nD) (t : Fin cfg1.N) :
    (dat1 V c).flushed 2 t = ((cfg1.win 2).blk t).view.read (Elt F) (scaleClamp (V c main_v31) (V c main_v30)) := by
  show (cfg1.win 2).cut (grid1.coords t) ((dat1 V c).after 2 t) = _
  rw [after1_2]
  unfold out1_2
  rw [View.canon_unit_zero zeroOff]
  simp only [View.ld_unit_zero (S := S200x1000) zeroOff, View.ld_unit_zero (S := S1x1) zeroOff]
  obtain ⟨e0, e1, e2, e3, e4, e5⟩ := rows1 t
  funext j
  refine (pay1_apply (iblk1 V c 0 t) (iblk1 V c 1 t) j).trans ?_
  have h0 : ((cfg1.win 0).blk t).view.emb j = ((cfg1.win 2).blk t).view.emb j := by
    funext a; apply Fin.ext
    match a with
    | ⟨0, _⟩ => show win1_0.index t (0 : Fin 2) * 200 + 1 * (j 0).val = win1_2.index t (0 : Fin 2) * 200 + 1 * (j 0).val; omega
    | ⟨1, _⟩ => show win1_0.index t (1 : Fin 2) * 1000 + 1 * (j 1).val = win1_2.index t (1 : Fin 2) * 1000 + 1 * (j 1).val; omega
  have h1 : ((cfg1.win 1).blk t).view.emb unitIx = unitIx := by
    funext a; apply Fin.ext
    match a with
    | ⟨0, _⟩ => show win1_1.index t (0 : Fin 2) * 1 + 1 * 0 = 0; omega
    | ⟨1, _⟩ => show win1_1.index t (1 : Fin 2) * 1 + 1 * 0 = 0; omega
  show _ = scaleClamp (V c main_v31) (V c main_v30) (((cfg1.win 2).blk t).view.emb j)
  unfold scaleClamp iblk1
  show FloatOps.maximumf (FloatOps.mulf (V c main_v31 (((cfg1.win 0).blk t).view.emb j)) (V c main_v30 (((cfg1.win 1).blk t).view.emb unitIx))) _ = _
  rw [h0, h1]

/-- An index of the slab is in point t's block iff its row is among the block's 200 rows. -/
theorem memRows1 (t : Fin cfg1.N) (i : S1000x1000.Idx) :
    i ∈ ((cfg1.win 2).blk t).view.set ↔ ∀ a : Fin 2, win1_2.index t a * S200x1000.size a ≤ (i a).val ∧ (i a).val < win1_2.index t a * S200x1000.size a + S200x1000.size a := by
  show i ∈ ((View.whole main_v32).slice (win1_2.rect t)).set ↔ _
  rw [View.set_slice_whole, Rect.mem_set_unit]
  exact Iff.rfl

/-- The five blocks tile the slab: row r lies in block r / 200. -/
theorem tiles1 (i : S1000x1000.Idx) : ∃ t : Fin cfg1.N, (cfg1.win 2).flush t = true ∧ i ∈ ((cfg1.win 2).blk t).view.set := by
  have hi0 : (i 0).val < 1000 := (i 0).isLt
  have hi1 : (i 1).val < 1000 := (i 1).isLt
  obtain ⟨t, ht⟩ := rowsOnto1 ⟨(i 0).val / 200, by omega⟩
  have q0 : win1_2.index t (0 : Fin 2) = (i 0).val / 200 := ht
  obtain ⟨e0, e1, e2, e3, e4, e5⟩ := rows1 t
  refine ⟨t, flush1_2 t, ?_⟩
  rw [memRows1]
  intro a
  match a with
  | ⟨0, _⟩ => show win1_2.index t (0 : Fin 2) * 200 ≤ (i 0).val ∧ (i 0).val < win1_2.index t (0 : Fin 2) * 200 + 200; omega
  | ⟨1, _⟩ => show win1_2.index t (1 : Fin 2) * 1000 ≤ (i 1).val ∧ (i 1).val < win1_2.index t (1 : Fin 2) * 1000 + 1000; omega

/-- The output array after the pass: the pass's function of the arrays it found, everywhere. -/
theorem arr1 (V : (c : Dev nD) → (b : Ref sig .tc) → Buf (Elt F) ((c : Thread nD τ).loc b)) (c : Dev nD) :
    (dat1 V c).arrAt 2 cfg1.N = scaleClamp (V c main_v31) (V c main_v30) :=
  (dat1 V c).arrAt_eq_of_cover 2 _ (fun t _ => flushed1 V c t) tiles1

/-! ## Pass 2 -/

/-- Block t of the input and of the output are the same rows; the parameter's block is the parameter. -/
theorem rows2 : ∀ t : Fin cfg2.N, win2_0.index t (0 : Fin 2) = win2_2.index t (0 : Fin 2)
    ∧ win2_0.index t (1 : Fin 2) = 0 ∧ win2_2.index t (1 : Fin 2) = 0
    ∧ win2_1.index t (0 : Fin 2) = 0 ∧ win2_1.index t (1 : Fin 2) = 0
    ∧ win2_2.index t (0 : Fin 2) ≤ 4 :=
  (by decide +kernel : ∀ t : Fin grid2.N, _)

/-- Every one of the five row-blocks is some point's. -/
theorem rowsOnto2 : ∀ q : Fin 5, ∃ t : Fin cfg2.N, win2_2.index t (0 : Fin 2) = q.val :=
  (by decide +kernel : ∀ q : Fin 5, ∃ t : Fin grid2.N, win2_2.index t (0 : Fin 2) = q.val)

/-- What point t writes back is rows [200 t, 200 t + 200) of the pass's function of the arrays it found. -/
theorem flushed2 (V : (c : Dev nD) → (b : Ref sig .tc) → Buf (Elt F) ((c : Thread nD τ).loc b)) (c : Dev nD) (t : Fin cfg2.N) :
    (dat2 V c).flushed 2 t = ((cfg2.win 2).blk t).view.read (Elt F) (shiftLogistic (V c main_v34) (V c main_v35)) := by
  show (cfg2.win 2).cut (grid2.coords t) ((dat2 V c).after 2 t) = _
  rw [after2_2]
  unfold out2_2
  rw [View.canon_unit_zero zeroOff]
  simp only [View.ld_unit_zero (S := S200x1000) zeroOff, View.ld_unit_zero (S := S1x1) zeroOff]
  obtain ⟨e0, e1, e2, e3, e4, e5⟩ := rows2 t
  funext j
  refine (pay2_apply (iblk2 V c 0 t) (iblk2 V c 1 t) j).trans ?_
  have h0 : ((cfg2.win 0).blk t).view.emb j = ((cfg2.win 2).blk t).view.emb j := by
    funext a; apply Fin.ext
    match a with
    | ⟨0, _⟩ => show win2_0.index t (0 : Fin 2) * 200 + 1 * (j 0).val = win2_2.index t (0 : Fin 2) * 200 + 1 * (j 0).val; omega
    | ⟨1, _⟩ => show win2_0.index t (1 : Fin 2) * 1000 + 1 * (j 1).val = win2_2.index t (1 : Fin 2) * 1000 + 1 * (j 1).val; omega
  have h1 : ((cfg2.win 1).blk t).view.emb unitIx = unitIx := by
    funext a; apply Fin.ext
    match a with
    | ⟨0, _⟩ => show win2_1.index t (0 : Fin 2) * 1 + 1 * 0 = 0; omega
    | ⟨1, _⟩ => show win2_1.index t (1 : Fin 2) * 1 + 1 * 0 = 0; omega
  show _ = shiftLogistic (V c main_v34) (V c main_v35) (((cfg2.win 2).blk t).view.emb j)
  unfold shiftLogistic iblk2
  show FloatOps.divf _ (FloatOps.addf _ (FloatOps.exp (FloatOps.subf _ (FloatOps.addf (V c main_v34 (((cfg2.win 0).blk t).view.emb j)) (V c main_v35 (((cfg2.win 1).blk t).view.emb unitIx)))))) = _
  rw [h0, h1]

/-- An index of the slab is in point t's block iff its row is among the block's 200 rows. -/
theorem memRows2 (t : Fin cfg2.N) (i : S1000x1000.Idx) :
    i ∈ ((cfg2.win 2).blk t).view.set ↔ ∀ a : Fin 2, win2_2.index t a * S200x1000.size a ≤ (i a).val ∧ (i a).val < win2_2.index t a * S200x1000.size a + S200x1000.size a := by
  show i ∈ ((View.whole main_v36).slice (win2_2.rect t)).set ↔ _
  rw [View.set_slice_whole, Rect.mem_set_unit]
  exact Iff.rfl

/-- The five blocks tile the slab: row r lies in block r / 200. -/
theorem tiles2 (i : S1000x1000.Idx) : ∃ t : Fin cfg2.N, (cfg2.win 2).flush t = true ∧ i ∈ ((cfg2.win 2).blk t).view.set := by
  have hi0 : (i 0).val < 1000 := (i 0).isLt
  have hi1 : (i 1).val < 1000 := (i 1).isLt
  obtain ⟨t, ht⟩ := rowsOnto2 ⟨(i 0).val / 200, by omega⟩
  have q0 : win2_2.index t (0 : Fin 2) = (i 0).val / 200 := ht
  obtain ⟨e0, e1, e2, e3, e4, e5⟩ := rows2 t
  refine ⟨t, flush2_2 t, ?_⟩
  rw [memRows2]
  intro a
  match a with
  | ⟨0, _⟩ => show win2_2.index t (0 : Fin 2) * 200 ≤ (i 0).val ∧ (i 0).val < win2_2.index t (0 : Fin 2) * 200 + 200; omega
  | ⟨1, _⟩ => show win2_2.index t (1 : Fin 2) * 1000 ≤ (i 1).val ∧ (i 1).val < win2_2.index t (1 : Fin 2) * 1000 + 1000; omega

/-- The output array after the pass: the pass's function of the arrays it found, everywhere. -/
theorem arr2 (V : (c : Dev nD) → (b : Ref sig .tc) → Buf (Elt F) ((c : Thread nD τ).loc b)) (c : Dev nD) :
    (dat2 V c).arrAt 2 cfg2.N = shiftLogistic (V c main_v34) (V c main_v35) :=
  (dat2 V c).arrAt_eq_of_cover 2 _ (fun t _ => flushed2 V c t) tiles2

end Cert.KernelIdeal.Slab

end
-- ==== Proof.Walk.lean ====
/-
  The result buffer's final contents as a function of the four arguments.

  The buffer contents at each of the seven boundaries are obtained from the previous boundary's: a stretch of host
  operations rewrites the buffers its operations write, each with its operation's value of the buffers it reads; a
  tiled pass rewrites its output slab with the pass's function of its input slab and parameter and keeps every
  other buffer. Followed backwards from the result buffer: two reshapes of the last pass's slab; the last pass reads
  the second pass's slab (reshaped to a column and back) and the bias; the second pass reads a gather-and-sum round
  of the first pass's slab (as a column), along the edge rows that the first stretch sliced out of the edge table
  and that nothing overwrites, and the second weight; the first pass reads a round of the feature column and the
  first weight. Put together this is the composed term named in the terms module.
-/
import proofs.«152386_j85856396248058_2_alg».proof.Proof.Slab

set_option maxRecDepth 16384

noncomputable section

namespace Cert.KernelIdeal.Walk

open Cert.KernelIdeal Cert.KernelIdeal.Gen Cert.KernelIdeal.Terms Cert.KernelIdeal.Slab
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Entering the first pass -/

/-- The first pass's input slab: a round of the feature column, laid out as a slab. -/
theorem into0_slab (c : Dev nD) : W1 m ρ c (Proc.devRef .tc main_v16)
    = shapeCast S1000x1000 (gatherSum (m ((c.tc : Thread nD τ).loc main_arg0)) (srcRow (m ((c.tc : Thread nD τ).loc main_arg1))) (dstRow (m ((c.tc : Thread nD τ).loc main_arg1)))) shapeCasts_S1000000x1_S1000x1000 := by
  show StableHlo.after hostOps0 (W0 m ρ c) (Proc.devRef .tc main_v16) = _
  unfold gatherSum srcRow dstRow
  dsimp only [hostOps0]
  after_results
  rfl

/-- Its parameter: the first weight. -/
theorem into0_par (c : Dev nD) : W1 m ρ c (Proc.devRef .tc main_v15) = weight0 (m ((c.tc : Thread nD τ).loc main_arg2)) := by
  show StableHlo.after hostOps0 (W0 m ρ c) (Proc.devRef .tc main_v15) = _
  unfold weight0
  dsimp only [hostOps0]
  after_results
  rfl

/-- The edges' sources, sliced out once and kept. -/
theorem into0_src (c : Dev nD) : W1 m ρ c (Proc.devRef .tc main_v1) = srcRow (m ((c.tc : Thread nD τ).loc main_arg1)) := by
  show StableHlo.after hostOps0 (W0 m ρ c) (Proc.devRef .tc main_v1) = _
  unfold srcRow
  dsimp only [hostOps0]
  after_results
  rfl

/-- The edges' destinations, sliced out once and kept. -/
theorem into0_dst (c : Dev nD) : W1 m ρ c (Proc.devRef .tc main_v3) = dstRow (m ((c.tc : Thread nD τ).loc main_arg1)) := by
  show StableHlo.after hostOps0 (W0 m ρ c) (Proc.devRef .tc main_v3) = _
  unfold dstRow
  dsimp only [hostOps0]
  after_results
  rfl

/-- The weights and the bias are not written by the first stretch. -/
theorem into0_w (c : Dev nD) : W1 m ρ c (Proc.devRef .tc main_arg2) = (m ((c.tc : Thread nD τ).loc main_arg2)) := by
  show StableHlo.after hostOps0 (W0 m ρ c) (Proc.devRef .tc main_arg2) = _
  dsimp only [hostOps0]
  after_results
theorem into0_b (c : Dev nD) : W1 m ρ c (Proc.devRef .tc main_arg3) = (m ((c.tc : Thread nD τ).loc main_arg3)) := by
  show StableHlo.after hostOps0 (W0 m ρ c) (Proc.devRef .tc main_arg3) = _
  dsimp only [hostOps0]
  after_results

/-! ## The first pass -/

theorem pass0 (c : Dev nD) : W2 m ρ c (Proc.devRef .tc main_v17) = scaleClamp (W1 m ρ c (Proc.devRef .tc main_v16)) (W1 m ρ c (Proc.devRef .tc main_v15)) :=
  (W2_arr m ρ c 2).trans (arr0 (V1 m ρ) c)

/-! ## Entering the second pass -/

/-- The second pass's input slab: a round of the first pass's output, along the same edges. -/
theorem into1_slab (c : Dev nD) : W3 m ρ c (Proc.devRef .tc main_v31)
    = shapeCast S1000x1000 (gatherSum (shapeCast S1000000x1 (W2 m ρ c (Proc.devRef .tc main_v17)) shapeCasts_S1000x1000_S1000000x1)
        (W2 m ρ c (Proc.devRef .tc main_v1)) (W2 m ρ c (Proc.devRef .tc main_v3))) shapeCasts_S1000000x1_S1000x1000 := by
  show StableHlo.after hostOps1 (W2 m ρ c) (Proc.devRef .tc main_v31) = _
  unfold gatherSum
  dsimp only [hostOps1]
  after_results
  rfl

/-- Its parameter: the second weight. -/
theorem into1_par (c : Dev nD) : W3 m ρ c (Proc.devRef .tc main_v30) = weight1 (W2 m ρ c (Proc.devRef .tc main_arg2)) := by
  show StableHlo.after hostOps1 (W2 m ρ c) (Proc.devRef .tc main_v30) = _
  unfold weight1
  dsimp only [hostOps1]
  after_results
  rfl

theorem into1_b (c : Dev nD) : W3 m ρ c (Proc.devRef .tc main_arg3) = W2 m ρ c (Proc.devRef .tc main_arg3) := by
  show StableHlo.after hostOps1 (W2 m ρ c) (Proc.devRef .tc main_arg3) = _
  dsimp only [hostOps1]
  after_results

/-! ## The second pass -/

theorem pass1 (c : Dev nD) : W4 m ρ c (Proc.devRef .tc main_v32) = scaleClamp (W3 m ρ c (Proc.devRef .tc main_v31)) (W3 m ρ c (Proc.devRef .tc main_v30)) :=
  (W4_arr m ρ c 2).trans (arr1 (V3 m ρ) c)

/-! ## Entering the last pass -/

theorem into2_slab (c : Dev nD) : W5 m ρ c (Proc.devRef .tc main_v34)
    = shapeCast S1000x1000 (shapeCast S1000000x1 (W4 m ρ c (Proc.devRef .tc main_v32)) shapeCasts_S1000x1000_S1000000x1) shapeCasts_S1000000x1_S1000x1000 := by
  show StableHlo.after hostOps2 (W4 m ρ c) (Proc.devRef .tc main_v34) = _
  dsimp only [hostOps2]
  after_results
  rfl

theorem into2_par (c : Dev nD) : W5 m ρ c (Proc.devRef .tc main_v35) = shapeCast S1x1 (W4 m ρ c (Proc.devRef .tc main_arg3)) shapeCasts_S_S1x1 := by
  show StableHlo.after hostOps2 (W4 m ρ c) (Proc.devRef .tc main_v35) = _
  dsimp only [hostOps2]
  after_results
  rfl

/-! ## The last pass and the closing reshapes -/

theorem pass2 (c : Dev nD) : W6 m ρ c (Proc.devRef .tc main_v36) = shiftLogistic (W5 m ρ c (Proc.devRef .tc main_v34)) (W5 m ρ c (Proc.devRef .tc main_v35)) :=
  (W6_arr m ρ c 2).trans (arr2 (V5 m ρ) c)

theorem out (c : Dev nD) : W7 m ρ c (Proc.devRef .tc main_v38)
    = shapeCast S1000000 (shapeCast S1000000x1 (W6 m ρ c (Proc.devRef .tc main_v36)) shapeCasts_S1000x1000_S1000000x1) shapeCasts_S1000000x1_S1000000 := by
  show StableHlo.after hostOps3 (W6 m ρ c) (Proc.devRef .tc main_v38) = _
  dsimp only [hostOps3]
  after_results
  rfl

/-! ## Put together -/

/-- The result buffer ends at the program's composed value of the four arguments. -/
theorem value (c : Dev nD) : W7 m ρ c (Proc.devRef .tc main_v38)
    = result (m ((c.tc : Thread nD τ).loc main_arg0)) (m ((c.tc : Thread nD τ).loc main_arg1)) (m ((c.tc : Thread nD τ).loc main_arg2)) (m ((c.tc : Thread nD τ).loc main_arg3)) := by
  rw [out, pass2, into2_slab, into2_par, pass1, into1_slab, into1_par, pass0,
    W4_of_ne m ρ c main_arg3 (by decide), into1_b, W2_of_ne m ρ c main_arg3 (by decide),
    W2_of_ne m ρ c main_v1 (by decide), W2_of_ne m ρ c main_v3 (by decide), W2_of_ne m ρ c main_arg2 (by decide),
    into0_slab, into0_par, into0_src, into0_dst, into0_w, into0_b]
  rfl

end Cert.KernelIdeal.Walk

end
-- ==== Proof.Bridge.lean ====
/-
  The two programs compute one function of the arguments.

  Both run the same two gather-and-sum rounds along the same edges and differ only in how the elementwise steps are
  laid out. After a round the reference multiplies the N × 1 column by the 1 × 1 weight as a matrix product — a sum
  over a contraction axis of length one, so entry n is a[n] · w — and clamps at zero; the tiled pass does the same
  on the column laid out as a 1000 × 1000 slab, and laying a column out as a slab and back changes no entry. For
  the head the reference reads the column as a vector, adds the bias and applies 1 / (1 + exp (-z)); the tiled pass
  computes 1 / (1 + exp (0 - z)) on the slab, and 0 - z = -z on the extended reals without any finiteness
  assumption. The quotient and the exponential are the same functions on the host and in a tiled pass.
-/
import proofs.«152386_j85856396248058_2_alg».proof.Proof.Terms
import proofs.«152386_j85856396248058_2_alg».proof.Proof.Gen.ReferenceIdeal.Read
import Idealize.ShloMosaic.PureOps.Ideal.Laws
import Idealize.ShloMosaic.Lib.ValueIdx
import Idealize.ShloMosaic.Lib.Pipeline.Value

noncomputable section

namespace Cert.Bridge

open Cert.ReferenceIdeal Cert.ReferenceIdeal.Gen Cert.KernelIdeal.Terms Idealize.ShloMosaic

/-- The gather's and the scatter's dimension tables are the same tables in both programs. -/
theorem gatherDims_eq : Cert.KernelIdeal.gather_S1000000x1_S16000000x1_S16000000x1_1_0_n_n_0_1_11
    = gather_S1000000x1_S16000000x1_S16000000x1_1_0_n_n_0_1_11 := rfl
theorem scatterDims_eq : Cert.KernelIdeal.scatter_S1000000x1_S16000000x1_S16000000x1_1_0_0_1
    = scatter_S1000000x1_S16000000x1_S16000000x1_1_0_0_1 := rfl

/-- A column laid out as a slab, scaled and clamped entry by entry, and laid back, is the column times the 1 × 1
    weight as a matrix product, clamped at zero: the contraction has one term. -/
theorem slabLayer (a : FVec Ideal S1000000x1 .f32) (w : FVec Ideal S1x1 .f32)
    (h1 : S1000000x1.ShapeCasts Cert.KernelIdeal.S1000x1000) (h2 : Cert.KernelIdeal.S1000x1000.ShapeCasts S1000000x1) :
    shapeCast S1000000x1 (scaleClamp (F := Ideal) (shapeCast Cert.KernelIdeal.S1000x1000 a h1) w) h2
      = maximumf (F := Ideal) (Host.dotGeneral (F := Ideal) dot_S1000000x1_S1x1_S1000000x1_1_0_0_1_n_n none a w)
          (broadcastInDim S1000000x1 ![] bcast_S_S1000000x1 (constant (F := Ideal) S_ .f32 0x00000000#32)) := by
  funext i
  show FloatOps.maximumf (FloatOps.mulf (a (Shape.reshapeEquiv h1 (Shape.reshapeEquiv h2 i))) (w unitIx)) (FloatOps.ofBits .f32 0x00000000#32)
    = FloatOps.maximumf (Host.dotGeneral (F := Ideal) dot_S1000000x1_S1x1_S1000000x1_1_0_0_1_n_n none a w i) (FloatOps.ofBits .f32 0x00000000#32)
  rw [Shape.reshapeEquiv_reshapeEquiv, Shape.reshapeEquiv_self]
  refine congrArg (fun z => FloatOps.maximumf z (FloatOps.ofBits (F := Ideal) .f32 0x00000000#32)) ?_
  simp only [Host.dotGeneral]
  rw [Ideal.dotGeneral_apply, ← Equiv.sum_comp (ValueIdx.contrEquiv1 dot_S1000000x1_S1x1_S1000000x1_1_0_0_1_n_n 1 rfl rfl).symm,
    Fin.sum_univ_one]
  have hk := ValueIdx.contrEquiv1_symm_val dot_S1000000x1_S1x1_S1000000x1_1_0_0_1_n_n 1 rfl rfl (0 : Fin 1)
  have hi : (i 1).val < 1 := (i 1).isLt
  have el : dot_S1000000x1_S1x1_S1000000x1_1_0_0_1_n_n.lhsIdx i ((ValueIdx.contrEquiv1 dot_S1000000x1_S1x1_S1000000x1_1_0_0_1_n_n 1 rfl rfl).symm 0) = i :=
    funext fun x => Fin.ext (by
      match x with
      | ⟨0, _⟩ => exact Read.lhs_main_v16_0 _ _
      | ⟨1, _⟩ => exact (Read.lhs_main_v16_1 _ _).trans (hk.trans (by show (0 : Fin 1).val = (i 1).val; omega)))
  have er : dot_S1000000x1_S1x1_S1000000x1_1_0_0_1_n_n.rhsIdx i ((ValueIdx.contrEquiv1 dot_S1000000x1_S1x1_S1000000x1_1_0_0_1_n_n 1 rfl rfl).symm 0) = unitIx :=
    funext fun x => Fin.ext (by
      match x with
      | ⟨0, _⟩ => exact (Read.rhs_main_v16_0 _ _).trans hk
      | ⟨1, _⟩ => exact (Read.rhs_main_v16_1 _ _).trans (by show (i 1).val = 0; omega))
  rw [el, er]
  rfl

/-- A column laid out as a slab, shifted by the bias and passed through 1 / (1 + exp (0 - z)) entry by entry, laid back
    and read as a vector, is the reference's logistic head of the column read as a vector. -/
theorem slabHead (h : FVec Ideal S1000000x1 .f32) (b : FVec Ideal S_ .f32)
    (h1 : S1000000x1.ShapeCasts Cert.KernelIdeal.S1000x1000) (hb : S_.ShapeCasts S1x1) (h2 : Cert.KernelIdeal.S1000x1000.ShapeCasts S1000000x1)
    (h3 : S1000000x1.ShapeCasts S1000000) :
    shapeCast S1000000 (shapeCast S1000000x1 (shiftLogistic (F := Ideal) (shapeCast Cert.KernelIdeal.S1000x1000 h h1) (shapeCast S1x1 b hb)) h2) h3
      = Host.divf (F := Ideal) (broadcastInDim S1000000 ![] bcast_S_S1000000 (constant (F := Ideal) S_ .f32 0x3F800000#32))
          (addf (F := Ideal) (broadcastInDim S1000000 ![] bcast_S_S1000000 (constant (F := Ideal) S_ .f32 0x3F800000#32))
            (Host.exp (F := Ideal) (Host.negf (F := Ideal) (addf (F := Ideal) (shapeCast _ h shapeCasts_S1000000x1_S1000000)
              (broadcastInDim S1000000 ![] bcast_S_S1000000 b))))) := by
  funext i
  have eh : Shape.reshapeEquiv h1 (Shape.reshapeEquiv h2 (Shape.reshapeEquiv h3 i)) = Shape.reshapeEquiv shapeCasts_S1000000x1_S1000000 i := by
    rw [Shape.reshapeEquiv_reshapeEquiv, Shape.reshapeEquiv_reshapeEquiv]
  obtain ⟨β, hβ⟩ : ∃ β, ∀ y : S_.Idx, b y = β := ⟨b (fun a => a.elim0), fun y => congrArg b (funext fun a => a.elim0)⟩
  show FloatOps.divf (F := Ideal) (FloatOps.ofBits .f32 0x3F800000#32) (FloatOps.addf (FloatOps.ofBits .f32 0x3F800000#32)
      (FloatOps.exp (FloatOps.subf (FloatOps.ofBits .f32 0x00000000#32)
        (FloatOps.addf (h (Shape.reshapeEquiv h1 (Shape.reshapeEquiv h2 (Shape.reshapeEquiv h3 i)))) (b (Shape.reshapeEquiv hb unitIx))))))
    = FloatOps.hostDivf (F := Ideal) (FloatOps.ofBits .f32 0x3F800000#32) (FloatOps.addf (FloatOps.ofBits .f32 0x3F800000#32)
      (FloatOps.hostUnary .exp (FloatOps.hostNegf (FloatOps.addf (h (Shape.reshapeEquiv shapeCasts_S1000000x1_S1000000 i)) (b _)))))
  rw [eh]
  simp only [hβ]
  simp only [Ideal.divf_def, Ideal.hostDivf_def, Ideal.addf_def, Ideal.subf_def, Ideal.exp_def, Ideal.hostUnary_exp_def,
    Ideal.hostNegf_def, Ideal.negf_def, Ideal.ofBits_def, Ideal.ofBits_zero_f32, zero_sub]

/-- The reference's value is the tiled program's composed value, as functions of the four arguments. -/
theorem same (x : (⟨S1000000x1, .f32⟩ : BufTy).Contents (Elt Ideal)) (e : (⟨S2x16000000, .i32⟩ : BufTy).Contents (Elt Ideal))
    (w : (⟨S2x1x1, .f32⟩ : BufTy).Contents (Elt Ideal)) (b : (⟨S_, .f32⟩ : BufTy).Contents (Elt Ideal)) :
    Read.val_main_v40 (F := Ideal) x e w b = result (F := Ideal) x e w b := by
  refine (Read.val_main_v40_eq (F := Ideal) x e w b).symm.trans ?_
  unfold result head layer
  rw [slabHead, slabLayer, slabLayer]
  unfold gatherSum srcRow dstRow weight0 weight1
  rw [gatherDims_eq, scatterDims_eq]

end Cert.Bridge

end
-- ==== Proof.lean ====
/-
  Two rounds of message passing on a graph and a logistic head: a program with three tiled elementwise passes
  against a plain array program.

  Both programs slice the sources and destinations out of the 2 × E edge table, and twice send every node's feature
  along its edges and sum what arrives (a gather at the sources, a sum into the destinations from zero); both scale
  the summed column by that round's 1 × 1 weight and clamp it at zero; both finish with the logistic function of
  the column shifted by the bias. The tiled program does the scaling, the clamping and the logistic on the column
  laid out as a 1000 × 1000 slab, five row-blocks of 200 rows at a time; the plain program multiplies by the weight
  as a matrix product with a contraction axis of length one and applies its operations to the whole column.

  The claims: each program runs to the end without a fault and leaves its arguments unchanged; no operation of the
  tiled program was rewritten for its reading on the extended reals, so that reading is the program's own; and on
  the extended reals the two results are equal entry by entry. The equality needs no finiteness of the inputs: it
  rests on the re-layouts moving no entry, on a one-term sum being its term, and on 0 - z = -z.

  The tiled program's run and the contents of its result buffer are in Whole and Walk, what each pass leaves in its
  output slab in Slab, the composed value in Terms, and the comparison with the plain program's value in Bridge.
-/
import proofs.«152386_j85856396248058_2_alg».proof.Defs
import proofs.«152386_j85856396248058_2_alg».proof.Proof.Gen.Kernel
import proofs.«152386_j85856396248058_2_alg».proof.Proof.Gen.Kernel.Skeleton
import proofs.«152386_j85856396248058_2_alg».proof.Proof.Gen.Kernel.Launch
import proofs.«152386_j85856396248058_2_alg».proof.Proof.Gen.Kernel.Points
import proofs.«152386_j85856396248058_2_alg».proof.Proof.Gen.Kernel.Frame
import proofs.«152386_j85856396248058_2_alg».proof.Proof.Gen.KernelIdeal
import proofs.«152386_j85856396248058_2_alg».proof.Proof.Gen.KernelIdeal.Skeleton
import proofs.«152386_j85856396248058_2_alg».proof.Proof.Gen.KernelIdeal.Launch
import proofs.«152386_j85856396248058_2_alg».proof.Proof.Gen.KernelIdeal.Points
import proofs.«152386_j85856396248058_2_alg».proof.Proof.Gen.KernelIdeal.Frame
import proofs.«152386_j85856396248058_2_alg».proof.Proof.Gen.ReferenceIdeal
import proofs.«152386_j85856396248058_2_alg».proof.Proof.Gen.Pre_finite_inputs
import proofs.«152386_j85856396248058_2_alg».proof.Proof.Gen.ReferenceIdeal.Run
import proofs.«152386_j85856396248058_2_alg».proof.Proof.Gen.ReferenceIdeal.Read
import proofs.«152386_j85856396248058_2_alg».proof.Proof.Whole
import proofs.«152386_j85856396248058_2_alg».proof.Proof.Walk
import proofs.«152386_j85856396248058_2_alg».proof.Proof.Bridge
import Idealize.ShloMosaic.Adequacy
import Idealize.ShloMosaic.Init

noncomputable section

namespace Cert.Proof

open Idealize.ShloMosaic Idealize.ShloMosaic.TcCoe Idealize.SL.Sem

/-- The word-level tiled program terminates without a fault and keeps its arguments. -/
theorem frame_tiled : Cert.frame_Kernel := fun m ρ _ => Cert.Kernel.Gen.frame m ρ

/-- So does its reading on the extended reals. -/
theorem frame_tiled_ideal : Cert.frame_KernelIdeal := fun m ρ _ => Cert.KernelIdeal.Gen.frame m ρ

/-- The plain program is a straight line of array operations: its run, with the result dropped. -/
theorem frame_plain : Cert.frame_ReferenceIdeal := fun m ρ _ =>
  (θ_run Cert.ReferenceIdeal.defs _ _).mono (fun _ h c => (h c).2) (Cert.ReferenceIdeal.Value.run (F := Ideal) m ρ)

/-- No operation was rewritten, so there is nothing to restate. -/
theorem preserves : Cert.preserves_Kernel_KernelIdeal := trivial

/-- On the extended reals, from memories that agree on the arguments, both programs end with the composed value of
    the arguments in their result buffers: the tiled program by reading its last boundary's contents, the plain
    program by its run and the comparison of the two values. -/
theorem algebraic : Cert.algebraic_KernelIdeal_ReferenceIdeal := by
  intro m ρ m' ρ' _ hagree
  refine ⟨fun c => Cert.KernelIdeal.Terms.result (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Walk.value m ρ c), (h c).2⟩)
      (Cert.KernelIdeal.Whole.run (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    exact (Cert.ReferenceIdeal.Read.val_main_v40_eq (F := Ideal) _ _ _ _).trans (Cert.Bridge.same _ _ _ _)

theorem claim : Cert.Claim :=
  ⟨Cert.Kernel.Gen.facts, Cert.KernelIdeal.Gen.facts, Cert.ReferenceIdeal.Gen.facts, Cert.Pre_finite_inputs.Gen.facts,
    frame_tiled, frame_tiled_ideal, frame_plain, preserves, algebraic⟩

end Cert.Proof

end
